-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S4096 : Shape := ⟨1, ![4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2x4096x4096 .f32) (main_arg1 : FVec F S4096x4096 .f32) (main_arg2 : FVec F S4096x4096 .f32) (main_arg3 : FVec F S4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2x4096x4096 : Shape := ⟨3, ![2, 4096, 4096]⟩
abbrev S4096x4096 : Shape := ⟨2, ![4096, 4096]⟩
abbrev S4096 : Shape := ⟨1, ![4096]⟩
abbrev S8192x4096 : Shape := ⟨2, ![8192, 4096]⟩
abbrev S128x4096 : Shape := ⟨2, ![128, 4096]⟩
abbrev S1x4096 : Shape := ⟨2, ![1, 4096]⟩

abbrev nBuf : Space → Nat
  | .hbm => 9
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096x4096, .bf16⟩
  | .hbm, ⟨6, _⟩ => ⟨S8192x4096, .f32⟩
  | .hbm, ⟨7, _⟩ => ⟨S8192x4096, .f32⟩
  | .hbm, ⟨8, _⟩ => ⟨S2x4096x4096, .f32⟩
  | .local _ .vmem, ⟨0, _⟩ => ⟨S128x4096, .f32⟩
  | .local _ .vmem, ⟨1, _⟩ => ⟨S128x4096, .f32⟩
  | .local _ .vmem, ⟨2, _⟩ => ⟨S4096x4096, .bf16⟩
  | .local _ .vmem, ⟨3, _⟩ => ⟨S4096, .f32⟩
  | .local _ .vmem, ⟨4, _⟩ => ⟨S128x4096, .f32⟩
  | .local _ .vmem, ⟨5, _⟩ => ⟨S128x4096, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S2x4096x4096_S8192x4096 : S2x4096x4096.ShapeCasts S8192x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  shapeCasts_S8192x4096_S2x4096x4096 : S8192x4096.ShapeCasts S2x4096x4096
  dot_S128x4096_S4096x4096_S128x4096_1_1_0_0_n_n_wf : DotDims.WF S128x4096 S4096x4096 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .f32 = 32 ∨ (Rect.block (s := S8192x4096) S128x4096.size (cc0_transform_3 i) (hinb0_3 i)).WholeWords (EltTy.packing .f32)

variable [Facts₀]

def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf

abbrev win0_0 : Pipeline.Window sig grid0 :=
  Pipeline.Window.ofSpec (Memref.whole main_v2) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S2x4096x4096, .f32⟩
  | .hbm, ⟨5, _⟩ => ⟨S2x4096x4096, .f32⟩
  | .hbm, ⟨6, _⟩ => ⟨S2x4096x4096, .f32⟩
  | .hbm, ⟨7, _⟩ => ⟨S1x1x4096, .f32⟩
  | .hbm, ⟨8, _⟩ => ⟨S2x4096x4096, .f32⟩
  | .hbm, ⟨9, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x4096_S4096x4096_S2x4096x4096_2_1_01_0_n_n_wf : DotDims.WF S2x4096x4096 S4096x4096 S2x4096x4096 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf

class Facts : Prop extends Facts₀ where

variable [Facts]
-- ==== Proof.LibDotT.lean ====
/-
  A product of a rows-by-depth array with the TRANSPOSE of a columns-by-depth array, read at an index.

  For dimension numbers that contract the second axis of both operands (the `M × K` by `N × K` product `x · wᵀ`,
  what a linear layer with weights stored output-major computes), the sum over the contraction index that both the
  kernel's matrix unit and the host's `dot_general` denote on the extended reals is `Σ_k l (a, k) · r (b, k)`.
-/
import Idealize.ShloMosaic.PureOps.Ideal.Laws
import Idealize.ShloMosaic.Lib.ValueIdx

noncomputable section

open scoped BigOperators

namespace Cert.LibDotT

open Idealize.ShloMosaic Idealize.ShloMosaic.ValueIdx

variable {M K N : ℕ}

/-- The contraction sum of `x · wᵀ` at output index `(a, b)` is the sum over `k : Fin K` of `l (a, k) · r (b, k)`.
    The dimension numbers are given by their six lists, as a printed record states them. -/
theorem sum_eq (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (a : Fin M) (b : Fin N) :
    ∑ k : D.contr.Idx, l (D.lhsIdx (ix2 a b) k) * r (D.rhsIdx (ix2 a b) k) = ∑ k : Fin K, l (ix2 a k) * r (ix2 b k) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![N, K]⟩) (so := ⟨2, ![M, N]⟩) [1] [1] [0] [0] [] [] wf).contr.rank = 1 := rfl
  have hs : (DotDims.mk (sl := ⟨2, ![M, K]⟩) (sr := ⟨2, ![N, K]⟩) (so := ⟨2, ![M, N]⟩) [1] [1] [0] [0] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![N, K]⟩) (so := ⟨2, ![M, N]⟩) [1] [1] [0] [0] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![N, K]⟩) (so := ⟨2, ![M, N]⟩) [1] [1] [0] [0] [] [] wf).rhsIdx (ix2 a b) ((contrEquiv1 _ K hr hs).symm k) = ix2 b k := by
    funext d
    match d with
    | ⟨0, _⟩ => rfl
    | ⟨1, _⟩ =>
      refine Fin.ext ?_
      exact (DotDims.rhsIdx_val_of_single _ (cr := 1) rfl (ix2 a b) _).trans (contrEquiv1_symm_val _ K hr hs k)
  rw [el, er]

end Cert.LibDotT

end
-- ==== Proof.KernelBody.lean ====
/-
  The kernel body's stored value, read at an index.

  At a grid point the body loads a block `x` of 128 rows of the flattened activations, the whole folded weight matrix
  `w` (stored output-major, one row per output feature) and the bias `b`; it multiplies `x` by the transpose of `w`
  on the matrix unit into a zero accumulator and adds the bias, kept as one row and spread over the 128 rows. At the
  extended reals the narrowing of the operands to bf16 changes nothing, so the stored entry at row `p`, column `q`
  is `∑ k, x (p, k) · w (q, k) + b q`.
-/
import proofs.«142298_j40991167873568_2_alg».proof.Proof.Gen.KernelIdeal.Skeleton
import proofs.«142298_j40991167873568_2_alg».proof.Proof.LibDotT
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.KernelIdeal.Body

open Cert.KernelIdeal Cert.KernelIdeal.Gen Idealize.ShloMosaic Idealize.ShloMosaic.ValueIdx

/-- The stored entry at `(p, q)`: the row `p` of the block against the row `q` of the weights, plus the bias of
    column `q`. -/
theorem stored_apply (x : Vec Ideal S128x4096 .f32) (w : Vec Ideal S4096x4096 .bf16) (b : Vec Ideal S4096 .f32)
    (p : Fin 128) (q : Fin 4096) :
    k0_pay1 (F := Ideal) x w b (ix2 p q) = (∑ k : Fin 4096, x (ix2 p k) * w (ix2 q k)) + b (ix1 q) := by
  unfold k0_pay1
  rw [addf_apply, broadcastTo_1b_ab_apply, shapeCast_a_1a_apply]
  refine congrArg (· + b (ix1 q)) ?_
  refine (Ideal.matmul_constant_zero_apply dot_S128x4096_S4096x4096_S128x4096_1_1_0_0_n_n none _ _ (ix2 p q)).trans ?_
  rw [shapeCast_self, shapeCast_self]
  exact Cert.LibDotT.sum_eq dot_S128x4096_S4096x4096_S128x4096_1_1_0_0_n_n rfl rfl rfl rfl rfl rfl
    (fun i => x i) (fun i => w i) p q

end Cert.KernelIdeal.Body

end
-- ==== Proof.KernelArray.lean ====
/-
  From the blocks the grid points write back to the whole array the region leaves.

  The region's output is the flattened result, 8192 rows by 4096 output features. Grid point `t` loads rows
  `128·t … 128·t + 127` of the flattened activations, the whole weight matrix and the whole bias, and writes back the
  same 128 rows of the output. So what a point writes back is the restriction to its rows of ONE function of the three
  arrays as the region finds them — entry `(r, o)` is `∑ k, X (r, k) · W (o, k) + b o` —, the 64 blocks tile the output,
  and the output array after the run is that function.
-/
import proofs.«142298_j40991167873568_2_alg».proof.Proof.Gen.KernelIdeal.Frame
import proofs.«142298_j40991167873568_2_alg».proof.Proof.KernelBody
import Idealize.ShloMosaic.Lib.Pipeline.Value

set_option maxRecDepth 16384

open scoped BigOperators

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The flattened linear layer: entry `(r, o)` of the output from the flattened activations `X`, the weights `W`
    (one row per output feature) and the bias `b`. -/
def flat (X : Vec Ideal S8192x4096 .f32) (W : Vec Ideal S4096x4096 .bf16) (b : Vec Ideal S4096 .f32) :
    Vec Ideal S8192x4096 .f32 :=
  fun i => (∑ k : Fin 4096, X (ix2 (i 0) k) * W (ix2 (i 1) k)) + b (ix1 (i 1))

theorem zeros2 : (![0, 0] : Fin 2 → Nat) = fun _ => 0 := funext fun a => by fin_cases a <;> rfl
theorem zeros1 : (![0] : Fin 1 → Nat) = fun _ => 0 := funext fun a => by fin_cases a <;> rfl

/-- The body's stored entry at a block index `j` is `flat`'s entry at an array index `i` of the same column whose row
    of activations is the block's row `j 0` — whenever the loaded weights and bias are the arrays'. -/
theorem stored_at (x : Vec Ideal S128x4096 .f32) (w : Vec Ideal S4096x4096 .bf16) (b : Vec Ideal S4096 .f32)
    (X : Vec Ideal S8192x4096 .f32) (W : Vec Ideal S4096x4096 .bf16) (B : Vec Ideal S4096 .f32)
    (j : S128x4096.Idx) (i : S8192x4096.Idx)
    (hx : ∀ k : Fin 4096, x (ix2 (j 0) k) = X (ix2 (i 0) k)) (hw : ∀ o k : Fin 4096, w (ix2 o k) = W (ix2 o k))
    (hb : ∀ o : Fin 4096, b (ix1 o) = B (ix1 o)) (hq : (j 1).val = (i 1).val) :
    k0_pay1 (F := Ideal) x w b j = flat X W B i := by
  obtain ⟨p, q, rfl⟩ : ∃ (p : Fin 128) (q : Fin 4096), j = ix2 p q := ⟨j 0, j 1, eq_ix2 j⟩
  have hq' : i 1 = q := Fin.ext hq.symm
  rw [Body.stored_apply]
  unfold flat
  rw [hq', hb q]
  refine congrArg (· + B (ix1 q)) (Finset.sum_congr rfl fun k _ => ?_)
  rw [hw q k]
  exact congrArg (· * W (ix2 q k)) (hx k)

/-- The printed index maps over the grid: the activations' and the output's block of point `t` is block `t` of the
    rows and the one block of the columns; the weights and the bias have one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is its rows of `flat` of the arrays as the region finds them. -/
theorem flushed_eq (c : Dev nD) (t : Fin cfg0.N) :
    (dats m 0 c).flushed 3 t
      = ((cfg0.win 3).blk t).view.read (Elt Ideal) (flat (V m c main_v2) (V m c main_v1) (V m c main_arg3)) := by
  show (cfg0.win 3).cut (grid0.coords t) ((dats m 0 c).after 3 t) = _
  rw [after0_3]
  unfold out0_3
  rw [View.canon_unit_zero zeros2]
  simp only [View.ld_unit_zero (S := S128x4096) zeros2, View.ld_unit_zero (S := S4096x4096) zeros2,
    View.ld_unit_zero (S := S4096) zeros1]
  obtain ⟨e00, e01, e10, e11, e20, e30, e31⟩ := index_facts t
  funext j
  show k0_pay1 (F := Ideal) (iblk m c 0 t) (iblk m c 1 t) (iblk m c 2 t) ((cfg0.win 3).xinj (grid0.coords t) j)
    = flat (V m c main_v2) (V m c main_v1) (V m c main_arg3) (((cfg0.win 3).blk t).view.emb j)
  refine stored_at (iblk m c 0 t) (iblk m c 1 t) (iblk m c 2 t) (V m c main_v2) (V m c main_v1) (V m c main_arg3)
    ((cfg0.win 3).xinj (grid0.coords t) j) (((cfg0.win 3).blk t).view.emb j) (fun k => ?_) (fun o k => ?_) (fun o => ?_) ?_
  · show V m c main_v2 (((cfg0.win 0).blk t).view.emb (ix2 _ k)) = V m c main_v2 (ix2 _ k)
    refine congrArg (V m c main_v2) (funext fun a => Fin.ext ?_)
    match a with
    | ⟨0, _⟩ => show win0_0.index t (0 : Fin 2) * 128 + 1 * (j 0).val = win0_3.index t (0 : Fin 2) * 128 + 1 * (j 0).val; omega
    | ⟨1, _⟩ => show win0_0.index t (1 : Fin 2) * 4096 + 1 * k.val = k.val; omega
  · show V m c main_v1 (((cfg0.win 1).blk t).view.emb (ix2 o k)) = V m c main_v1 (ix2 o k)
    refine congrArg (V m c main_v1) (funext fun a => Fin.ext ?_)
    match a with
    | ⟨0, _⟩ => show win0_1.index t (0 : Fin 2) * 4096 + 1 * o.val = o.val; omega
    | ⟨1, _⟩ => show win0_1.index t (1 : Fin 2) * 4096 + 1 * k.val = k.val; omega
  · show V m c main_arg3 (((cfg0.win 2).blk t).view.emb (ix1 o)) = V m c main_arg3 (ix1 o)
    refine congrArg (V m c main_arg3) (funext fun a => Fin.ext ?_)
    match a with
    | ⟨0, _⟩ => show win0_2.index t (0 : Fin 1) * 4096 + 1 * o.val = o.val; omega
  · show (j 1).val = win0_3.index t (1 : Fin 2) * 4096 + 1 * (j 1).val
    omega

/-- An index of the output array is in point `t`'s block iff each coordinate is in the block's range on its axis. -/
theorem mem_blk (t : Fin cfg0.N) (i : S8192x4096.Idx) :
    i ∈ ((cfg0.win 3).blk t).view.set ↔ ∀ a : Fin 2, win0_3.index t a * S128x4096.size a ≤ (i a).val
      ∧ (i a).val < win0_3.index t a * S128x4096.size a + S128x4096.size a := by
  show i ∈ ((View.whole main_v3).slice (win0_3.rect t)).set ↔ _
  rw [View.set_slice_whole, Rect.mem_set_unit]
  exact Iff.rfl

/-- Every row of the output is in some point's block: row `r` in that of point `r / 128`. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 64 := N_0
  obtain ⟨t, ht⟩ : ∃ t : Fin cfg0.N, t.val = (i 0).val / 128 := ⟨⟨(i 0).val / 128, by rw [hN]; omega⟩, rfl⟩
  obtain ⟨e00, e01, e10, e11, e20, e30, e31⟩ := index_facts t
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 4096 ≤ (i 1).val ∧ (i 1).val < win0_3.index t (1 : Fin 2) * 4096 + 4096; omega

/-- The output array after the region: `flat` of the arrays as the region finds them. -/
theorem final (c : Dev nD) :
    (dats m 0 c).arrAt 3 cfg0.N = flat (V m c main_v2) (V m c main_v1) (V m c main_arg3) :=
  (dats m 0 c).arrAt_eq_of_cover 3 (flat (V m c main_v2) (V m c main_v1) (V m c main_arg3))
    (fun t _ => flushed_eq m c t) cover

/-! ## The host lines around the region -/

/-- The region finds the activations flattened to 8192 rows, -/
theorem entry_x (c : Dev nD) : (V m c main_v2 : Vec Ideal S8192x4096 .f32)
    = shapeCast S8192x4096 (m ((c : Thread nD τ).loc main_arg0)) shapeCasts_S2x4096x4096_S8192x4096 := by
  show StableHlo.after hostOps0 (fun b => m (c, b)) (Proc.devRef .tc main_v2) = _
  after_results
  rfl

/-- The two weight matrices added entry by entry. -/
def folded (ws wr : FVec Ideal S4096x4096 .f32) : Vec Ideal S4096x4096 .bf16 := fun j => ws j + wr j

/-- and the sum of the two weight matrices (narrowed, which at the extended reals changes nothing). -/
theorem entry_w (c : Dev nD) : (V m c main_v1 : Vec Ideal S4096x4096 .bf16)
    = folded (m ((c : Thread nD τ).loc main_arg1)) (m ((c : Thread nD τ).loc main_arg2)) := by
  show StableHlo.after hostOps0 (fun b => m (c, b)) (Proc.devRef .tc main_v1) = _
  after_results
  rfl

/-- The program's result is the region's output array given back its leading axis. -/
theorem result_eq (c : Dev nD) :
    Pipeline.afterTail₀ cfgs (dats m) 0 (V0 m) [hostOps1] c main_v4
      = shapeCast S2x4096x4096 ((dats m 0 c).arrAt 3 cfg0.N) shapeCasts_S8192x4096_S2x4096x4096 := by
  unfold Pipeline.afterTail₀
  show StableHlo.after hostOps1 _ (Proc.devRef .tc main_v4) = _
  after_results
  exact congrArg (fun A => shapeCast S2x4096x4096 A shapeCasts_S8192x4096_S2x4096x4096)
    (Pipeline.withArrays_arr spec0 launch0.win.arr_inj c (V0 m c) (fun w => (dats m 0 c).arrAt w cfg0.N) 3)

end Cert.KernelIdeal.Array

end
-- ==== Proof.LibReal.lean ====
/-
  Extended reals that are real numbers. On the extended reals the sum and the product are commutative and associative,
  but the product distributes over the sum only away from the infinities. The predicate `IsR a` says `a` is (the image of)
  a real number; it is closed under every operation met here — sums, finite sums, products, differences, the guarded and
  the plain division by a nonzero real, the logistic function and the hyperbolic tangent — and under it the distributive
  law holds.
-/
import Idealize.ShloMosaic.PureOps.Ideal

noncomputable section

namespace Cert.LibReal

open Idealize.ShloMosaic

/-- `a` is a real number. -/
def IsR (a : EReal) : Prop := ∃ r : ℝ, a = (r : EReal)

theorem IsR.coe (r : ℝ) : IsR (r : EReal) := ⟨r, rfl⟩
theorem IsR.zero : IsR 0 := ⟨0, rfl⟩
theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

/-- A finite sum of real numbers is a real number. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The quotient of a real number by a nonzero real number. -/
theorem IsR.div {a b : EReal} (ha : IsR a) (hb : IsR b) (hb0 : b ≠ 0) : IsR (Ideal.div a b) := by
  obtain ⟨s, rfl⟩ := hb
  have hs : s ≠ 0 := fun e => hb0 (by rw [e]; rfl)
  rw [Ideal.div_coe hs]
  exact ha.mul (IsR.coe _)

theorem IsR.logistic {a : EReal} (ha : IsR a) : IsR (Ideal.logistic a) := by
  obtain ⟨r, rfl⟩ := ha; exact ⟨_, Ideal.logistic_coe r⟩

theorem IsR.tanh {a : EReal} (ha : IsR a) : IsR (Ideal.tanh a) := by
  obtain ⟨r, rfl⟩ := ha; exact ⟨_, Ideal.tanh_coe r⟩

/-- Among real numbers the product distributes over the sum. -/
theorem add_mul_of_isR {a b c : EReal} (ha : IsR a) (hb : IsR b) (hc : IsR c) : (a + b) * c = a * c + b * c := by
  obtain ⟨r, rfl⟩ := ha; obtain ⟨s, rfl⟩ := hb; obtain ⟨t, rfl⟩ := hc
  rw [← EReal.coe_add, ← EReal.coe_mul, ← EReal.coe_mul, ← EReal.coe_mul, ← EReal.coe_add, add_mul]

end Cert.LibReal

end
-- ==== Proof.Spec.lean ====
/-
  The function both programs compute, and the law that joins their two arrangements of it.

  A linear layer whose weight matrix is the sum of two matrices `ws` and `wr` (stored output-major: one row per output
  feature): `y (s, t, o) = ∑ k, x (s, t, k) · (ws (o, k) + wr (o, k)) + b o`. One program adds the matrices first and
  multiplies once; the other multiplies by each and adds the products. On the extended reals the product distributes
  over the sum only away from the infinities, so the two agree when the entries are real numbers; the sums themselves
  may be regrouped freely.
-/
import Idealize.ShloMosaic.PureOps.Ideal
import Idealize.ShloMosaic.Lib.ValueIdx
import proofs.«142298_j40991167873568_2_alg».proof.Proof.LibReal

open scoped BigOperators

noncomputable section

namespace Cert.Spec

open Idealize.ShloMosaic Idealize.ShloMosaic.ValueIdx Cert.LibReal

/-- The layer with the two weight matrices folded into one: entry `(s, t, o)`. -/
def linear (x : (⟨3, ![2, 4096, 4096]⟩ : Shape).Idx → EReal) (ws wr : (⟨2, ![4096, 4096]⟩ : Shape).Idx → EReal)
    (b : (⟨1, ![4096]⟩ : Shape).Idx → EReal) : (⟨3, ![2, 4096, 4096]⟩ : Shape).Idx → EReal :=
  fun i => (∑ k : Fin 4096, x (ix3 (i 0) (i 1) k) * (ws (ix2 (i 2) k) + wr (ix2 (i 2) k))) + b (ix1 (i 2))

/-- Among real numbers, a sum of products with a sum is the sum of the two sums of products. -/
theorem sum_mul_add {ι : Type*} [Fintype ι] (x u v : ι → EReal) (hx : ∀ k, IsR (x k)) (hu : ∀ k, IsR (u k))
    (hv : ∀ k, IsR (v k)) : ∑ k, x k * (u k + v k) = ∑ k, x k * u k + ∑ k, x k * v k := by
  rw [← Finset.sum_add_distrib]
  refine Finset.sum_congr rfl fun k _ => ?_
  rw [mul_comm (x k) (u k + v k), add_mul_of_isR (hu k) (hv k) (hx k), mul_comm (u k), mul_comm (v k)]

/-- The layer computed matrix by matrix is the folded layer, when the activations and both matrices hold real numbers. -/
theorem linear_of_split (x : (⟨3, ![2, 4096, 4096]⟩ : Shape).Idx → EReal) (ws wr : (⟨2, ![4096, 4096]⟩ : Shape).Idx → EReal)
    (b : (⟨1, ![4096]⟩ : Shape).Idx → EReal) (hx : ∀ i, IsR (x i)) (hs : ∀ i, IsR (ws i)) (hr : ∀ i, IsR (wr i))
    (i : (⟨3, ![2, 4096, 4096]⟩ : Shape).Idx) :
    ((∑ k : Fin 4096, x (ix3 (i 0) (i 1) k) * ws (ix2 (i 2) k)) + (∑ k : Fin 4096, x (ix3 (i 0) (i 1) k) * wr (ix2 (i 2) k)))
        + b (ix1 (i 2)) = linear x ws wr b i := by
  unfold linear
  rw [sum_mul_add _ _ _ (fun k => hx _) (fun k => hs _) (fun k => hr _)]

end Cert.Spec

end
-- ==== Proof.KernelResult.lean ====
/-
  The kernel program's result, read at an index, is the folded linear layer.

  The program's result is the region's 8192-by-4096 output given back its leading axis: entry `(s, t, o)` is the
  output's entry at row `4096·s + t`, column `o`. The activations the region found are the argument flattened the same
  way, so row `4096·s + t`, column `k` of them is `x (s, t, k)`; the weights it found are the two matrices added. Hence
  the result at `(s, t, o)` is `∑ k, x (s, t, k) · (ws (o, k) + wr (o, k)) + b o`.
-/
import proofs.«142298_j40991167873568_2_alg».proof.Proof.KernelArray
import proofs.«142298_j40991167873568_2_alg».proof.Proof.Spec

open scoped BigOperators

noncomputable section

namespace Cert.KernelIdeal.Array

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The flattened layer of the flattened activations and the folded weights, given back its leading axis, is the
    folded linear layer. -/
theorem flat_linear (x : FVec Ideal S2x4096x4096 .f32) (ws wr : FVec Ideal S4096x4096 .f32) (b : FVec Ideal S4096 .f32) :
    shapeCast S2x4096x4096 (flat (shapeCast S8192x4096 x shapeCasts_S2x4096x4096_S8192x4096) (folded ws wr) b)
        shapeCasts_S8192x4096_S2x4096x4096
      = Cert.Spec.linear x ws wr b := by
  funext i
  have hi0 : (i 0).val < 2 := (i 0).isLt
  have hi1 : (i 1).val < 4096 := (i 1).isLt
  obtain ⟨r, hr⟩ : ∃ r : Fin 8192, r.val = (i 0).val * 4096 + (i 1).val :=
    ⟨⟨(i 0).val * 4096 + (i 1).val, by omega⟩, rfl⟩
  rw [shapeCast_apply _ shapeCasts_S8192x4096_S2x4096x4096 i (ix2 r (i 2)) (by
    rw [Shape.rowMajor_val_two, Shape.rowMajor_val_three]
    show r.val * 4096 + (i 2).val = ((i 0).val * 4096 + (i 1).val) * 4096 + (i 2).val
    rw [hr])]
  show (∑ k : Fin 4096, shapeCast S8192x4096 x shapeCasts_S2x4096x4096_S8192x4096 (ix2 r k) * folded ws wr (ix2 (i 2) k))
        + b (ix1 (i 2)) = _
  unfold Cert.Spec.linear
  refine congrArg (· + b (ix1 (i 2))) (Finset.sum_congr rfl fun k _ => ?_)
  rw [shapeCast_apply _ shapeCasts_S2x4096x4096_S8192x4096 (ix2 r k) (ix3 (i 0) (i 1) k) (by
    rw [Shape.rowMajor_val_two, Shape.rowMajor_val_three]
    show ((i 0).val * 4096 + (i 1).val) * 4096 + k.val = r.val * 4096 + k.val
    rw [hr])]
  rfl

/-- The program's result array is `Spec.linear` of the four arguments as launched. -/
theorem result_linear (c : Dev nD) :
    Pipeline.afterTail₀ cfgs (dats m) 0 (V0 m) [hostOps1] c main_v4
      = Cert.Spec.linear (m ((c : Thread nD τ).loc main_arg0)) (m ((c : Thread nD τ).loc main_arg1))
          (m ((c : Thread nD τ).loc main_arg2)) (m ((c : Thread nD τ).loc main_arg3)) := by
  rw [result_eq, final, entry_x, entry_w, V_main_arg3]
  exact flat_linear _ _ _ _

end Cert.KernelIdeal.Array

end
-- ==== Proof.KernelRun.lean ====
/-
  The kernel program's run, with its result named.

  Every weakly fair execution of the idealized kernel program terminates without a fault; the result array ends as
  the folded linear layer of the four arguments, and the arguments end as launched. The result is read off the
  generated frame run: it is no array of the region, so it ends as the host line after the region leaves it.
-/
import proofs.«142298_j40991167873568_2_alg».proof.Proof.KernelResult

noncomputable section

namespace Cert.KernelIdeal.Array

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v4)
        = Cert.Spec.linear (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v4 (Pipeline.mem_restRefs_of main_v4 (by decide) (by decide))).trans (result_linear m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c)))⟩)
    (run_main m ρ)

end Cert.KernelIdeal.Array

end
-- ==== Proof.RefValue.lean ====
/-
  The reference, read at an index, is the folded linear layer.

  The reference multiplies the activations by each weight matrix (contracting the feature axis of both), adds the two
  products and then the bias spread over the leading axes. At an index `(s, t, o)` that is
  `(∑ k, x (s, t, k) · ws (o, k) + ∑ k, x (s, t, k) · wr (o, k)) + b o`, which for real entries is the layer with the
  matrices added first.
-/
import proofs.«142298_j40991167873568_2_alg».proof.Proof.Gen.ReferenceIdeal.Read
import proofs.«142298_j40991167873568_2_alg».proof.Proof.Spec

open scoped BigOperators

noncomputable section

namespace Cert.ReferenceIdeal.RefValue

open Cert.ReferenceIdeal Cert.ReferenceIdeal.Read Idealize.ShloMosaic Idealize.ShloMosaic.ValueIdx Cert.LibReal

/-- The reference's result is `Spec.linear` of its arguments when the activations and both matrices hold real numbers. -/
theorem reference_eq (x0 : FVec Ideal S2x4096x4096 .f32) (x1 x2 : FVec Ideal S4096x4096 .f32) (x3 : FVec Ideal S4096 .f32)
    (h0 : ∀ i, IsR (x0 i)) (h1 : ∀ i, IsR (x1 i)) (h2 : ∀ i, IsR (x2 i)) :
    val_main_v5 (F := Ideal) x0 x1 x2 x3 = Cert.Spec.linear x0 x1 x2 x3 := by
  funext i
  have el1 : ∀ k : Fin 4096, lidx_main_v1 i k = ix3 (i 0) (i 1) k := fun k => funext fun a => Fin.ext (by
    match a with | ⟨0, _⟩ => rfl | ⟨1, _⟩ => rfl | ⟨2, _⟩ => rfl)
  have er1 : ∀ k : Fin 4096, ridx_main_v1 i k = ix2 (i 2) k := fun k => funext fun a => Fin.ext (by
    match a with | ⟨0, _⟩ => rfl | ⟨1, _⟩ => rfl)
  have el0 : ∀ k : Fin 4096, lidx_main_v0 i k = ix3 (i 0) (i 1) k := fun k => funext fun a => Fin.ext (by
    match a with | ⟨0, _⟩ => rfl | ⟨1, _⟩ => rfl | ⟨2, _⟩ => rfl)
  have er0 : ∀ k : Fin 4096, ridx_main_v0 i k = ix2 (i 2) k := fun k => funext fun a => Fin.ext (by
    match a with | ⟨0, _⟩ => rfl | ⟨1, _⟩ => rfl)
  have eb : idx_main_v3 (idx_main_v4 i) = ix1 (i 2) := funext fun a => Fin.ext (by
    match a with | ⟨0, _⟩ => rfl)
  rw [val_main_v5_apply, val_main_v2_apply, val_main_v1_apply, val_main_v0_apply, val_main_v4_apply, val_main_v3_apply]
  simp only [el1, er1, el0, er0, eb, Ideal.addf_def]
  exact Cert.Spec.linear_of_split x0 x1 x2 x3 h0 h1 h2 i

end Cert.ReferenceIdeal.RefValue

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.LibFinite.lean ====
/-
  A printed finiteness precondition read back. `jnp.all(|x| < +∞)` prints as a reduction by `and`, from the constant 1, of
  the comparison of `|x|` with the broadcast pattern of `+∞`; when that reduction is 1, every entry of `x` is a real
  number: an extended real whose absolute value `max a (-a)` is below `⊤` is neither infinity.
-/
import Idealize.ShloMosaic.Lib.ReduceAll
import Idealize.ShloMosaic.Lib.ValueIdx
import Idealize.ShloMosaic.PureOps.Ideal.Laws
import proofs.«142298_j40991167873568_2_alg».proof.Proof.LibReal
import proofs.«142298_j40991167873568_2_alg».proof.Proof.LibColumn

noncomputable section

namespace Cert.LibFinite

open Idealize.ShloMosaic Cert.LibReal

/-- The shape of rank zero has one index. -/
instance : Subsingleton (⟨0, ![]⟩ : Shape).Idx := ⟨fun _ _ => funext fun d => d.elim0⟩

/-- An extended real whose absolute value compares below the pattern of `+∞` is a real number. -/
theorem isR_of_abs_lt_inf (a : EReal)
    (h : Ideal.cmp .olt (max a (-a)) (Ideal.ofBits .f32 0x7F800000#32) = 1#1) : IsR a := by
  have htop : Ideal.ofBits .f32 0x7F800000#32 = ⊤ := by simp [Ideal.ofBits, Ideal.ieee]
  rw [htop] at h
  unfold Ideal.cmp at h
  have hlt : max a (-a) < ⊤ := by
    by_contra hn
    simp [hn] at h
  rw [max_lt_iff] at hlt
  induction a using EReal.rec with
  | bot => simp at hlt
  | coe r => exact ⟨r, rfl⟩
  | top => simp at hlt

/-- `jnp.all(|x| < +∞)` being 1 makes every entry of `x` a real number. -/
theorem isR_of_all_finite {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi
        (cmpf .olt (Host.absf x) (broadcastInDim s ![] bc (constant (F := Ideal) ⟨0, ![]⟩ .f32 0x7F800000#32)))
        (constantI ⟨0, ![]⟩ 1 1#1) h hu j = 1#1)
    (i : s.Idx) : IsR (x i) := by
  have hi := Host.reduce_andi_all _ _ h hu j e i
  rw [ValueIdx.cmpf_apply, Cert.LibColumn.broadcastInDim_scalar_apply] at hi
  exact isR_of_abs_lt_inf (x i) hi

end Cert.LibFinite

end
-- ==== Proof.Finite.lean ====
/-
  The precondition read back: every entry of the activations and of both weight matrices is a real number.

  The precondition is the conjunction, over the four arguments, of "every entry's absolute value is below +∞". Each
  conjunct makes every entry of its array a real number — the fact under which the product distributes over the sum.
-/
import proofs.«142298_j40991167873568_2_alg».proof.Pre_finite_inputs
import proofs.«142298_j40991167873568_2_alg».proof.Proof.LibFinite
import Idealize.ShloMosaic.Lib.Affine

noncomputable section

namespace Cert.Finite

open Idealize.ShloMosaic Cert.LibReal Cert.Pre_finite_inputs

/-- When the printed precondition is 1, the first three arguments hold real numbers throughout. -/
theorem reals_of_pre [Cert.Pre_finite_inputs.Facts] (a0 : FVec Ideal S2x4096x4096 .f32) (a1 a2 : FVec Ideal S4096x4096 .f32)
    (a3 : FVec Ideal S4096 .f32) (h : Cert.Pre_finite_inputs.fn (F := Ideal) a0 a1 a2 a3 = fun _ => 1#1) :
    (∀ i, IsR (a0 i)) ∧ (∀ i, IsR (a1 i)) ∧ (∀ i, IsR (a2 i)) := by
  have h0 := congrFun h ValueIdx.ix0
  dsimp only [fn, fn_part1, Idealize.ShloMosaic.andi] at h0
  rw [IntOp.andi_eq_one, IntOp.andi_eq_one, IntOp.andi_eq_one] at h0
  obtain ⟨⟨⟨e0, e1⟩, e2⟩, -⟩ := h0
  exact ⟨Cert.LibFinite.isR_of_all_finite a0 _ _ _ _ e0, Cert.LibFinite.isR_of_all_finite a1 _ _ _ _ e1,
    Cert.LibFinite.isR_of_all_finite a2 _ _ _ _ e2⟩

end Cert.Finite

end
-- ==== Proof.lean ====
/-
  The certificate: a fused linear layer against its two-product reference.

  The kernel program adds the two weight matrices on the host, flattens the activations to 8192 rows, and in 64 grid
  points multiplies 128 rows at a time by the transpose of the folded matrix, adding the bias; the reference multiplies
  the activations by each matrix, adds the products and the bias. At the extended reals both are
  `y (s, t, o) = ∑ k, x (s, t, k) · (ws (o, k) + wr (o, k)) + b o`: the kernel by reading its blocks back to the whole
  array (`KernelArray`, `KernelResult`), the reference by distributing the product over the sum of the matrices
  (`RefValue`, `Spec`), which holds because the precondition makes every entry a real number (`Finite`). The three
  frames are the generated ones; the idealization rewrote nothing, so `preserves` has nothing to state.
-/
import proofs.«142298_j40991167873568_2_alg».proof.Defs
import proofs.«142298_j40991167873568_2_alg».proof.Proof.Gen.Kernel
import proofs.«142298_j40991167873568_2_alg».proof.Proof.Gen.Kernel.Skeleton
import proofs.«142298_j40991167873568_2_alg».proof.Proof.Gen.Kernel.Launch
import proofs.«142298_j40991167873568_2_alg».proof.Proof.Gen.Kernel.Points
import proofs.«142298_j40991167873568_2_alg».proof.Proof.Gen.Kernel.Frame
import proofs.«142298_j40991167873568_2_alg».proof.Proof.Gen.KernelIdeal
import proofs.«142298_j40991167873568_2_alg».proof.Proof.Gen.KernelIdeal.Skeleton
import proofs.«142298_j40991167873568_2_alg».proof.Proof.Gen.KernelIdeal.Launch
import proofs.«142298_j40991167873568_2_alg».proof.Proof.Gen.KernelIdeal.Points
import proofs.«142298_j40991167873568_2_alg».proof.Proof.Gen.KernelIdeal.Frame
import proofs.«142298_j40991167873568_2_alg».proof.Proof.Gen.ReferenceIdeal
import proofs.«142298_j40991167873568_2_alg».proof.Proof.Gen.Pre_finite_inputs
import proofs.«142298_j40991167873568_2_alg».proof.Proof.Gen.ReferenceIdeal.Run
import proofs.«142298_j40991167873568_2_alg».proof.Proof.Gen.ReferenceIdeal.Read
import proofs.«142298_j40991167873568_2_alg».proof.Proof.KernelRun
import proofs.«142298_j40991167873568_2_alg».proof.Proof.RefValue
import proofs.«142298_j40991167873568_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the folded linear layer of the (agreeing) arguments: the kernel always, the reference
    because the precondition makes the activations and both matrices real, so that the product distributes. -/
theorem algebraic : Cert.algebraic_KernelIdeal_ReferenceIdeal := by
  intro m ρ m' ρ' hpre hagree
  refine ⟨fun c => Cert.Spec.linear (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Finite.reals_of_pre _ _ _ _ (hpre c)
  rw [Cert.ReferenceIdeal.Read.val_main_v5_eq, (hagree c).1, (hagree c).2.1, (hagree c).2.2.1, (hagree c).2.2.2]
  exact Cert.ReferenceIdeal.RefValue.reference_eq _ _ _ _ h0 h1 h2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
